-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3x64x64 : Shape := ⟨4, ![1, 3, 64, 64]⟩
abbrev S_ : Shape := ⟨0, ![]⟩

class Facts : Prop where
  bcast_S_S1x3x64x64 : S_.BroadcastsInDim S1x3x64x64 (![] : Fin 0 → Fin S1x3x64x64.rank)
  reducesTo_S1x3x64x64_S_d0_1_2_3 : S1x3x64x64.ReducesTo [0, 1, 2, 3] S_
  h_S_ : 0 < S_.numel

variable [Facts]

def fn {F : FTy → Type} [FloatOps F] (main_arg0 : FVec F S1x3x64x64 .f32) (main_arg1 : FVec F S1x3x64x64 .f32) : IVec S_ 1 :=
  let main_v0 : FVec F S1x3x64x64 .f32 := Host.absf main_arg0
  let main_cst : FVec F S_ .f32 := constant S_ .f32 0x7F800000#32
  let main_v1 : FVec F S1x3x64x64 .f32 := broadcastInDim S1x3x64x64 ![] bcast_S_S1x3x64x64 main_cst
  let main_v2 : IVec S1x3x64x64 1 := cmpf .olt main_v0 main_v1
  let main_c : IVec S_ 1 := constantI S_ 1 1#1
  let main_v3 : IVec S_ 1 := (fun x v => Host.reduce IntOp.andi x v reducesTo_S1x3x64x64_S_d0_1_2_3 h_S_) main_v2 main_c
  let main_v4 : FVec F S1x3x64x64 .f32 := Host.absf main_arg1
  let main_cst_0 : FVec F S_ .f32 := constant S_ .f32 0x7F800000#32
  let main_v5 : FVec F S1x3x64x64 .f32 := broadcastInDim S1x3x64x64 ![] bcast_S_S1x3x64x64 main_cst_0
  let main_v6 : IVec S1x3x64x64 1 := cmpf .olt main_v4 main_v5
  let main_c_1 : IVec S_ 1 := constantI S_ 1 1#1
  let main_v7 : IVec S_ 1 := (fun x v => Host.reduce IntOp.andi x v reducesTo_S1x3x64x64_S_d0_1_2_3 h_S_) main_v6 main_c_1
  let main_v8 : IVec S_ 1 := andi main_v3 main_v7
  main_v8
-- ==== Kernel.lean ====
abbrev S1x3x64x64 : Shape := ⟨4, ![1, 3, 64, 64]⟩
abbrev S3x4096 : Shape := ⟨2, ![3, 4096]⟩
abbrev S4096x3 : Shape := ⟨2, ![4096, 3]⟩
abbrev S1x4096 : Shape := ⟨2, ![1, 4096]⟩
abbrev S3x512 : Shape := ⟨2, ![3, 512]⟩
abbrev S1024x3 : Shape := ⟨2, ![1024, 3]⟩
abbrev S1x512 : Shape := ⟨2, ![1, 512]⟩
abbrev S1024x512 : Shape := ⟨2, ![1024, 512]⟩
abbrev S1024x1 : Shape := ⟨2, ![1024, 1]⟩
abbrev S512 : Shape := ⟨1, ![512]⟩
abbrev S_ : Shape := ⟨0, ![]⟩

abbrev nBuf : Space → Nat
  | .hbm => 11
  | .vmem => 11
  | .smem => 0
  | _ => 0

abbrev bufTy : (tb : Table) → Fin (tcTables nBuf tb) → BufTy
  | .hbm, ⟨0, _⟩ => ⟨S1x3x64x64, .f32⟩
  | .hbm, ⟨1, _⟩ => ⟨S1x3x64x64, .f32⟩
  | .hbm, ⟨2, _⟩ => ⟨S3x4096, .f32⟩
  | .hbm, ⟨3, _⟩ => ⟨S4096x3, .f32⟩
  | .hbm, ⟨4, _⟩ => ⟨S3x4096, .f32⟩
  | .hbm, ⟨5, _⟩ => ⟨S4096x3, .f32⟩
  | .hbm, ⟨6, _⟩ => ⟨S1x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S3x512, .f32⟩
  | .local _ .vmem, ⟨1, _⟩ => ⟨S3x512, .f32⟩
  | .local _ .vmem, ⟨2, _⟩ => ⟨S1024x3, .f32⟩
  | .local _ .vmem, ⟨3, _⟩ => ⟨S1024x3, .f32⟩
  | .local _ .vmem, ⟨4, _⟩ => ⟨S3x512, .f32⟩
  | .local _ .vmem, ⟨5, _⟩ => ⟨S3x512, .f32⟩
  | .local _ .vmem, ⟨6, _⟩ => ⟨S1024x3, .f32⟩
  | .local _ .vmem, ⟨7, _⟩ => ⟨S1024x3, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | _, _ => ⟨S1x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v77 : BitVec 1 := Scalar.cmpi .eq arg1 c3_i32
  let v78 : BitVec 32 := Scalar.extui v77
  let c0_i32_20 : BitVec 32 := 0#32
  let v79 : BitVec 1 := Scalar.cmpi .ne v78 c0_i32_20
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1x3x64x64_S3x4096 : S1x3x64x64.ShapeCasts S3x4096
  transposes_S3x4096_S4096x3_1_0 : S3x4096.Transposes [1, 0] S4096x3
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S3x512_S3x512_0_0 : ∀ a, (![0, 0] : Fin 2 → Nat) a + S3x512.size a ≤ S3x512.size a
  h_S3x512 : 0 < S3x512.numel
  shapeCasts_S3x512_S3x512 : S3x512.ShapeCasts S3x512
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  slices_S1024x3_o0_0_S1024x1 : S1024x3.Slices ![0, 0] S1024x1
  slices_S3x512_o0_0_S1x512 : S3x512.Slices ![0, 0] S1x512
  broadcasts_S1024x1_S1024x512 : S1024x1.Broadcasts S1024x512
  broadcasts_S1x512_S1024x512 : S1x512.Broadcasts S1024x512
  slices_S1024x3_o0_1_S1024x1 : S1024x3.Slices ![0, 1] S1024x1
  slices_S3x512_o1_0_S1x512 : S3x512.Slices ![1, 0] S1x512
  slices_S1024x3_o0_2_S1024x1 : S1024x3.Slices ![0, 2] S1024x1
  slices_S3x512_o2_0_S1x512 : S3x512.Slices ![2, 0] S1x512
  reduces_S1024x512_S512 : S1024x512.Reduces [0] S512
  shapeCasts_S512_S1x512 : S512.ShapeCasts S1x512
  reducesTo_S1x4096_S_d0_1 : S1x4096.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x512.size a ≤ S3x4096.size a
  hwx0_0 : ∀ i : grid0.Coords, EltTy.bits .f32 = 32 ∨ (Rect.block (s := S3x4096) S3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S4096x3.size a
  hwx0_1 : ∀ i : grid0.Coords, EltTy.bits .f32 = 32 ∨ (Rect.block (s := S4096x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x512.size a ≤ S3x4096.size a
  hwx0_2 : ∀ i : grid0.Coords, EltTy.bits .f32 = 32 ∨ (Rect.block (s := S3x4096) S3x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3.size a ≤ S4096x3.size a
  hwx0_3 : ∀ i : grid0.Coords, EltTy.bits .f32 = 32 ∨ (Rect.block (s := S4096x3) S1024x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)

variable [Facts₀]

abbrev win0_0 : Pipeline.Window sig grid0 :=
  Pipeline.Window.ofSpec (Memref.whole main_v0) S3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1x3x64x64 : Shape := ⟨4, ![1, 3, 64, 64]⟩
abbrev S1x3x4096 : Shape := ⟨3, ![1, 3, 4096]⟩
abbrev S1x4096x3 : Shape := ⟨3, ![1, 4096, 3]⟩
abbrev S1x4096x1x3 : Shape := ⟨4, ![1, 4096, 1, 3]⟩
abbrev S1x1x4096x3 : Shape := ⟨4, ![1, 1, 4096, 3]⟩
abbrev S1x4096x4096x3 : Shape := ⟨4, ![1, 4096, 4096, 3]⟩
abbrev S_ : Shape := ⟨0, ![]⟩
abbrev S1x4096x4096 : Shape := ⟨3, ![1, 4096, 4096]⟩
abbrev S1x4096 : Shape := ⟨2, ![1, 4096]⟩
abbrev S1 : Shape := ⟨1, ![1]⟩

abbrev nBuf : Space → Nat
  | .hbm => 78
  | .vmem => 0
  | .smem => 0
  | _ => 0

abbrev bufTy : (tb : Table) → Fin (tcTables nBuf tb) → BufTy
  | .hbm, ⟨0, _⟩ => ⟨S1x3x64x64, .f32⟩
  | .hbm, ⟨1, _⟩ => ⟨S1x3x64x64, .f32⟩
  | .hbm, ⟨2, _⟩ => ⟨S1x3x4096, .f32⟩
  | .hbm, ⟨3, _⟩ => ⟨S1x4096x3, .f32⟩
  | .hbm, ⟨4, _⟩ => ⟨S1x3x4096, .f32⟩
  | .hbm, ⟨5, _⟩ => ⟨S1x4096x3, .f32⟩
  | .hbm, ⟨6, _⟩ => ⟨S1x4096x1x3, .f32⟩
  | .hbm, ⟨7, _⟩ => ⟨S1x1x4096x3, .f32⟩
  | .hbm, ⟨8, _⟩ => ⟨S1x4096x4096x3, .f32⟩
  | .hbm, ⟨9, _⟩ => ⟨S1x4096x4096x3, .f32⟩
  | .hbm, ⟨10, _⟩ => ⟨S1x4096x4096x3, .f32⟩
  | .hbm, ⟨11, _⟩ => ⟨S1x4096x4096x3, .f32⟩
  | .hbm, ⟨12, _⟩ => ⟨S_, .f32⟩
  | .hbm, ⟨13, _⟩ => ⟨S1x4096x4096, .f32⟩
  | .hbm, ⟨14, _⟩ => ⟨S_, .f32⟩
  | .hbm, ⟨15, _⟩ => ⟨S1x4096x4096, .f32⟩
  | .hbm, ⟨16, _⟩ => ⟨S1x4096x4096, .i1⟩
  | .hbm, ⟨17, _⟩ => ⟨S_, .f32⟩
  | .hbm, ⟨18, _⟩ => ⟨S_, .f32⟩
  | .hbm, ⟨19, _⟩ => ⟨S1x4096x4096, .f32⟩
  | .hbm, ⟨20, _⟩ => ⟨S1x4096x4096, .f32⟩
  | .hbm, ⟨21, _⟩ => ⟨S1x4096x4096, .f32⟩
  | .hbm, ⟨22, _⟩ => ⟨S_, .f32⟩
  | .hbm, ⟨23, _⟩ => ⟨S_, .f32⟩
  | .hbm, ⟨24, _⟩ => ⟨S1x4096x4096, .f32⟩
  | .hbm, ⟨25, _⟩ => ⟨S1x4096x4096, .f32⟩
  | .hbm, ⟨26, _⟩ => ⟨S1x4096x1x3, .f32⟩
  | .hbm, ⟨27, _⟩ => ⟨S1x1x4096x3, .f32⟩
  | .hbm, ⟨28, _⟩ => ⟨S1x4096x4096x3, .f32⟩
  | .hbm, ⟨29, _⟩ => ⟨S1x4096x4096x3, .f32⟩
  | .hbm, ⟨30, _⟩ => ⟨S1x4096x4096x3, .f32⟩
  | .hbm, ⟨31, _⟩ => ⟨S1x4096x4096x3, .f32⟩
  | .hbm, ⟨32, _⟩ => ⟨S_, .f32⟩
  | .hbm, ⟨33, _⟩ => ⟨S1x4096x4096, .f32⟩
  | .hbm, ⟨34, _⟩ => ⟨S_, .f32⟩
  | .hbm, ⟨35, _⟩ => ⟨S1x4096x4096, .f32⟩
  | .hbm, ⟨36, _⟩ => ⟨S1x4096x4096, .i1⟩
  | .hbm, ⟨37, _⟩ => ⟨S_, .f32⟩
  | .hbm, ⟨38, _⟩ => ⟨S_, .f32⟩
  | .hbm, ⟨39, _⟩ => ⟨S1x4096x4096, .f32⟩
  | .hbm, ⟨40, _⟩ => ⟨S1x4096x4096, .f32⟩
  | .hbm, ⟨41, _⟩ => ⟨S1x4096x4096, .f32⟩
  | .hbm, ⟨42, _⟩ => ⟨S_, .f32⟩
  | .hbm, ⟨43, _⟩ => ⟨S_, .f32⟩
  | .hbm, ⟨44, _⟩ => ⟨S1x4096x4096, .f32⟩
  | .hbm, ⟨45, _⟩ => ⟨S1x4096x4096, .f32⟩
  | .hbm, ⟨46, _⟩ => ⟨S_, .f32⟩
  | .hbm, ⟨47, _⟩ => ⟨S1x4096x4096, .f32⟩
  | .hbm, ⟨48, _⟩ => ⟨S1x4096x4096, .f32⟩
  | .hbm, ⟨49, _⟩ => ⟨S_, .f32⟩
  | .hbm, ⟨50, _⟩ => ⟨S1x4096x4096, .f32⟩
  | .hbm, ⟨51, _⟩ => ⟨S1x4096x4096, .f32⟩
  | .hbm, ⟨52, _⟩ => ⟨S_, .f32⟩
  | .hbm, ⟨53, _⟩ => ⟨S1x4096x4096, .f32⟩
  | .hbm, ⟨54, _⟩ => ⟨S1x4096x4096, .f32⟩
  | .hbm, ⟨55, _⟩ => ⟨S_, .f32⟩
  | .hbm, ⟨56, _⟩ => ⟨S1x4096x4096, .f32⟩
  | .hbm, ⟨57, _⟩ => ⟨S1x4096x4096, .f32⟩
  | .hbm, ⟨58, _⟩ => ⟨S_, .f32⟩
  | .hbm, ⟨59, _⟩ => ⟨S1x4096x4096, .f32⟩
  | .hbm, ⟨60, _⟩ => ⟨S1x4096x4096, .f32⟩
  | .hbm, ⟨61, _⟩ => ⟨S_, .f32⟩
  | .hbm, ⟨62, _⟩ => ⟨S1x4096x4096, .f32⟩
  | .hbm, ⟨63, _⟩ => ⟨S1x4096x4096, .f32⟩
  | .hbm, ⟨64, _⟩ => ⟨S_, .f32⟩
  | .hbm, ⟨65, _⟩ => ⟨S1x4096x4096, .f32⟩
  | .hbm, ⟨66, _⟩ => ⟨S1x4096x4096, .f32⟩
  | .hbm, ⟨67, _⟩ => ⟨S1x4096x4096, .f32⟩
  | .hbm, ⟨68, _⟩ => ⟨S_, .f32⟩
  | .hbm, ⟨69, _⟩ => ⟨S1x4096, .f32⟩
  | .hbm, ⟨70, _⟩ => ⟨S_, .f32⟩
  | .hbm, ⟨71, _⟩ => ⟨S1x4096, .f32⟩
  | .hbm, ⟨72, _⟩ => ⟨S1x4096, .f32⟩
  | .hbm, ⟨73, _⟩ => ⟨S_, .f32⟩
  | .hbm, ⟨74, _⟩ => ⟨S1, .f32⟩
  | .hbm, ⟨75, _⟩ => ⟨S_, .f32⟩
  | .hbm, ⟨76, _⟩ => ⟨S_, .f32⟩
  | .hbm, ⟨77, _⟩ => ⟨S_, .f32⟩
  | _, _ => ⟨S1x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_call2_v0 : Ref sig .tc := ⟨.hbm, 38, rfl⟩
abbrev main_call2_v1 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_call3_v0 : Ref sig .tc := ⟨.hbm, 43, rfl⟩
abbrev main_call3_v1 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_14 : Ref sig .tc := ⟨.hbm, 68, rfl⟩
abbrev main_v43 : Ref sig .tc := ⟨.hbm, 69, rfl⟩
abbrev main_cst_15 : Ref sig .tc := ⟨.hbm, 70, rfl⟩
abbrev main_v44 : Ref sig .tc := ⟨.hbm, 71, rfl⟩
abbrev main_v45 : Ref sig .tc := ⟨.hbm, 72, rfl⟩
abbrev main_cst_16 : Ref sig .tc := ⟨.hbm, 73, rfl⟩
abbrev main_v46 : Ref sig .tc := ⟨.hbm, 74, rfl⟩
abbrev main_v47 : Ref sig .tc := ⟨.hbm, 75, rfl⟩
abbrev main_cst_17 : Ref sig .tc := ⟨.hbm, 76, rfl⟩
abbrev main_v48 : Ref sig .tc := ⟨.hbm, 77, rfl⟩

abbrev nD : Nat := 1
abbrev τ : Topo := Topo.v7x

variable {F : FTy → Type} [FloatOps F]

class Facts₀ : Prop where
  shapeCasts_S1x3x64x64_S1x3x4096 : S1x3x64x64.ShapeCasts S1x3x4096
  transposes_S1x3x4096_S1x4096x3_0_2_1 : S1x3x4096.Transposes [0, 2, 1] S1x4096x3
  bcast_S1x4096x3_S1x4096x1x3_0_1_3 : S1x4096x3.BroadcastsInDim S1x4096x1x3 (![0, 1, 3] : Fin 3 → Fin S1x4096x1x3.rank)
  bcast_S1x4096x3_S1x1x4096x3_0_2_3 : S1x4096x3.BroadcastsInDim S1x1x4096x3 (![0, 2, 3] : Fin 3 → Fin S1x1x4096x3.rank)
  bcast_S1x4096x1x3_S1x4096x4096x3_0_1_2_3 : S1x4096x1x3.BroadcastsInDim S1x4096x4096x3 (![0, 1, 2, 3] : Fin 4 → Fin S1x4096x4096x3.rank)
  bcast_S1x1x4096x3_S1x4096x4096x3_0_1_2_3 : S1x1x4096x3.BroadcastsInDim S1x4096x4096x3 (![0, 1, 2, 3] : Fin 4 → Fin S1x4096x4096x3.rank)
  reducesTo_S1x4096x4096x3_S1x4096x4096_d3 : S1x4096x4096x3.ReducesTo [3] S1x4096x4096
  h_S_ : 0 < S_.numel
  bcast_S_S1x4096x4096 : S_.BroadcastsInDim S1x4096x4096 (![] : Fin 0 → Fin S1x4096x4096.rank)
  reducesTo_S1x4096x4096_S1x4096_d2 : S1x4096x4096.ReducesTo [2] S1x4096
  bcast_S_S1x4096 : S_.BroadcastsInDim S1x4096 (![] : Fin 0 → Fin S1x4096.rank)
  reducesTo_S1x4096_S1_d1 : S1x4096.ReducesTo [1] S1
  shapeCasts_S1_S_ : S1.ShapeCasts S_

variable [Facts₀]

class Facts : Prop extends Facts₀ where

variable [Facts]
-- ==== Proof.Spec.lean ====
/-
  The pairwise-distance loss as functions of the two point clouds, over the extended reals.

  A cloud is 4096 points of dimension 3: `X c n` is coordinate `c` of point `n`. For a pair of points
  `(j, i)` the term is `min (|x_j - x_i| - 1) 1 * max (1 - |y_j - y_i| / 2) 0`, and the loss is a quarter of the
  sum of the terms over all pairs. Two spellings are stated: the blocked one (the squared distance accumulated
  coordinate by coordinate from zero, the column sums accumulated over four blocks of 1024 rows), and the
  plain one (a guarded square root, `2 * min (d / 2) 1 - 1`, a half taken of every row sum and of the total).
-/
import Idealize.ShloMosaic.PureOps.Ideal
import Idealize.ShloMosaic.PureOps.Ideal.Laws
import Idealize.ShloMosaic.Lib.ValueIdx

noncomputable section

namespace Cert.PairLoss

open Idealize.ShloMosaic

/-- The float constants of both programs, as the extended reals their words denote. -/
abbrev zero : EReal := Ideal.ofBits .f32 0x00000000#32
abbrev one : EReal := Ideal.ofBits .f32 0x3F800000#32
abbrev half : EReal := Ideal.ofBits .f32 0x3F000000#32
abbrev two : EReal := Ideal.ofBits .f32 0x40000000#32
abbrev quarter : EReal := Ideal.ofBits .f32 0x3E800000#32

/-- A point cloud: `X c n` is coordinate `c` of point `n`. -/
abbrev Cloud := Fin 3 → Fin 4096 → EReal

/-! ## The blocked spelling -/

/-- The squared distance of points `j` and `i`, accumulated coordinate by coordinate from zero. -/
def sqK (X : Cloud) (j i : Fin 4096) : EReal :=
  ((zero + (X 0 j - X 0 i) * (X 0 j - X 0 i)) + (X 1 j - X 1 i) * (X 1 j - X 1 i)) + (X 2 j - X 2 i) * (X 2 j - X 2 i)

/-- The term of the pair `(j, i)`: `min (d_x - 1) 1 * max (1 - d_y / 2) 0`, the halving a product with `1/2`. -/
def termK (X Y : Cloud) (j i : Fin 4096) : EReal :=
  min (Ideal.sqrt (sqK X j i) * one - one) one * max (one - Ideal.sqrt (sqK Y j i) * half) zero

/-- Row `r` of block `b` of the 4096 rows, cut into four blocks of 1024. -/
abbrev rowOf (b : Fin 4) (r : Fin 1024) : Fin 4096 := ⟨1024 * b.val + r.val, by omega⟩

/-- The sum of column `i`'s terms over the rows of block `b`. -/
def blockSum (X Y : Cloud) (b : Fin 4) (i : Fin 4096) : EReal :=
  ∑ r : Fin 1024, termK X Y (rowOf b r) i

/-- Column `i`'s sum, accumulated block by block from zero. -/
def colK (X Y : Cloud) (i : Fin 4096) : EReal :=
  (((zero + blockSum X Y 0 i) + blockSum X Y 1 i) + blockSum X Y 2 i) + blockSum X Y 3 i

/-- The loss, blocked spelling: a quarter of the sum of the column sums. -/
def lossK (X Y : Cloud) : EReal :=
  quarter * (zero + ∑ i : Fin 4096, colK X Y i)

/-! ## The plain spelling -/

/-- The squared distance of points `n` and `m` as one sum over the coordinates, from zero. -/
def sqR (X : Cloud) (n m : Fin 4096) : EReal :=
  zero + ∑ c : Fin 3, (X c n - X c m) * (X c n - X c m)

/-- The distance with a guarded square root: the root of the squared distance where that is positive (of `1`
    elsewhere, a value then discarded), and `0` elsewhere. -/
def distR (X : Cloud) (n m : Fin 4096) : EReal :=
  Scalar.select (Ideal.cmp .ogt (sqR X n m) zero)
    (Ideal.sqrt (Scalar.select (Ideal.cmp .ogt (sqR X n m) zero) (sqR X n m) one)) zero

/-- The term of the pair `(n, m)`: `(2 * min (d_x / 2) 1 - 1) * max (1 - d_y / 2) 0`, the halvings quotients by `2`. -/
def termR (X Y : Cloud) (n m : Fin 4096) : EReal :=
  (two * min (Ideal.div (distR X n m) two) one - one) * max (one - Ideal.div (distR Y n m) two) zero

/-- The loss, plain spelling: half the sum over `n` of half the sum over `m` of the terms. -/
def lossR (X Y : Cloud) : EReal :=
  half * (zero + ∑ n : Fin 4096, half * (zero + ∑ m : Fin 4096, termR X Y n m))

/-- A cloud of finite points: every coordinate is a real number. -/
def Finite (X : Cloud) : Prop := ∀ c n, ∃ r : ℝ, X c n = (r : EReal)

/-- The cloud an array of shape [1, 3, 64, 64] holds: point `n` is the pixel `(n / 64, n % 64)` of each of the
    three channels. -/
def cloudOf (x : (⟨4, ![1, 3, 64, 64]⟩ : Shape).Idx → EReal) : Cloud :=
  fun c n => x (ValueIdx.ix4 (0 : Fin 1) c (⟨n.val / 64, by omega⟩ : Fin 64) (⟨n.val % 64, Nat.mod_lt _ (by decide)⟩ : Fin 64))

end Cert.PairLoss

end
-- ==== Proof.Algebra.lean ====
/-
  The two spellings of the pairwise-distance loss agree on clouds of finite points.

  With every coordinate a real number, each squared distance is the coercion of the nonnegative real
  s = (x_0j - x_0i)^2 + (x_1j - x_1i)^2 + (x_2j - x_2i)^2 in both spellings, the guarded root is the coercion of
  the real square root of s, and both terms are the coercion of the real number
  min (d_x - 1) 1 * max (1 - d_y / 2) 0. The four blocks of 1024 rows partition the 4096 rows, so a column sum
  is the sum over all rows; the two losses are then the same real double sum, a quarter of it.
-/
import proofs.«154118_j61521111547944_2_alg».proof.Proof.Spec
import Mathlib.Algebra.BigOperators.Fin
import Mathlib.Algebra.Order.BigOperators.Group.Finset
import Mathlib.Logic.Equiv.Fin.Basic
import Mathlib.Tactic

noncomputable section

namespace Cert.PairLoss

open Idealize.ShloMosaic

/-! ## The constants -/

theorem zero_eq : zero = (0 : EReal) := Ideal.ofBits_zero_f32

theorem one_eq : one = ((1 : ℝ) : EReal) := by
  show Ideal.ofBits .f32 0x3F800000#32 = ((1 : ℝ) : EReal)
  simp [Ideal.ofBits, Ideal.ieee, -EReal.coe_mul]; norm_num

theorem half_eq : half = ((1 / 2 : ℝ) : EReal) := by
  show Ideal.ofBits .f32 0x3F000000#32 = ((1 / 2 : ℝ) : EReal)
  simp [Ideal.ofBits, Ideal.ieee, -EReal.coe_mul]; norm_num

theorem two_eq : two = ((2 : ℝ) : EReal) := by
  show Ideal.ofBits .f32 0x40000000#32 = ((2 : ℝ) : EReal)
  simp [Ideal.ofBits, Ideal.ieee, -EReal.coe_mul]; norm_num

theorem quarter_eq : quarter = ((1 / 4 : ℝ) : EReal) := by
  show Ideal.ofBits .f32 0x3E800000#32 = ((1 / 4 : ℝ) : EReal)
  simp [Ideal.ofBits, Ideal.ieee, -EReal.coe_mul]; norm_num

/-! ## Real witnesses -/

/-- The cloud of the coercions of real coordinates. -/
def coeCloud (x : Fin 3 → Fin 4096 → ℝ) : Cloud := fun c n => (x c n : EReal)

theorem exists_coeCloud (X : Cloud) (hX : Finite X) : ∃ x, X = coeCloud x := by
  choose x hx using hX
  exact ⟨x, funext fun c => funext fun n => hx c n⟩

/-- The real squared distance of points j and i. -/
def sqr (x : Fin 3 → Fin 4096 → ℝ) (j i : Fin 4096) : ℝ :=
  (x 0 j - x 0 i) * (x 0 j - x 0 i) + (x 1 j - x 1 i) * (x 1 j - x 1 i) + (x 2 j - x 2 i) * (x 2 j - x 2 i)

theorem sqr_nonneg (x : Fin 3 → Fin 4096 → ℝ) (j i : Fin 4096) : 0 ≤ sqr x j i := by
  unfold sqr
  have h0 := mul_self_nonneg (x 0 j - x 0 i)
  have h1 := mul_self_nonneg (x 1 j - x 1 i)
  have h2 := mul_self_nonneg (x 2 j - x 2 i)
  linarith

theorem sqK_coe (x : Fin 3 → Fin 4096 → ℝ) (j i : Fin 4096) : sqK (coeCloud x) j i = (sqr x j i : EReal) := by
  simp only [sqK, coeCloud, sqr, zero_eq, zero_add, EReal.coe_add, EReal.coe_mul, EReal.coe_sub]

theorem sqR_coe (x : Fin 3 → Fin 4096 → ℝ) (n m : Fin 4096) : sqR (coeCloud x) n m = (sqr x n m : EReal) := by
  simp only [sqR, coeCloud, sqr, zero_eq, zero_add, Fin.sum_univ_three, EReal.coe_add, EReal.coe_mul,
    EReal.coe_sub]

/-! ## The root and the guarded root -/

theorem sqrt_coe_nonneg {s : ℝ} (h : 0 ≤ s) : Ideal.sqrt (s : EReal) = (Real.sqrt s : EReal) := by
  rw [Ideal.sqrt_coe, if_neg (not_lt.mpr h)]

theorem select_ogt {α : Type} (a b : EReal) (u v : α) :
    Scalar.select (Ideal.cmp .ogt a b) u v = if b < a then u else v := by
  unfold Scalar.select Ideal.cmp
  by_cases h : b < a <;> simp [h]

theorem distR_coe (x : Fin 3 → Fin 4096 → ℝ) (n m : Fin 4096) :
    distR (coeCloud x) n m = (Real.sqrt (sqr x n m) : EReal) := by
  unfold distR
  rw [select_ogt, select_ogt, sqR_coe, zero_eq]
  by_cases h : (0 : EReal) < (sqr x n m : EReal)
  · rw [if_pos h, if_pos h, sqrt_coe_nonneg (sqr_nonneg x n m)]
  · rw [if_neg h]
    have h0 : sqr x n m = 0 := by
      have : ¬ (0 : ℝ) < sqr x n m := fun hlt => h (by exact_mod_cast hlt)
      exact le_antisymm (not_lt.mp this) (sqr_nonneg x n m)
    rw [h0, Real.sqrt_zero, EReal.coe_zero]

/-! ## The terms -/

/-- The real term of the pair (n, m). -/
def termF (x y : Fin 3 → Fin 4096 → ℝ) (n m : Fin 4096) : ℝ :=
  min (Real.sqrt (sqr x n m) - 1) 1 * max (1 - Real.sqrt (sqr y n m) * (1 / 2)) 0

theorem coe_min' (a b : ℝ) : min (a : EReal) (b : EReal) = ((min a b : ℝ) : EReal) :=
  (EReal.coe_strictMono.monotone.map_min).symm

theorem coe_max' (a b : ℝ) : max (a : EReal) (b : EReal) = ((max a b : ℝ) : EReal) :=
  (EReal.coe_strictMono.monotone.map_max).symm

theorem termK_coe (x y : Fin 3 → Fin 4096 → ℝ) (j i : Fin 4096) :
    termK (coeCloud x) (coeCloud y) j i = (termF x y j i : EReal) := by
  unfold termK termF
  rw [sqK_coe, sqK_coe, sqrt_coe_nonneg (sqr_nonneg x j i), sqrt_coe_nonneg (sqr_nonneg y j i), one_eq, half_eq,
    zero_eq, ← EReal.coe_zero, ← EReal.coe_mul, ← EReal.coe_mul, ← EReal.coe_sub, ← EReal.coe_sub, coe_min',
    coe_max', ← EReal.coe_mul, mul_one]

theorem real_term (d : ℝ) : 2 * min (d * (1 / 2)) 1 - 1 = min (d - 1) 1 := by
  rcases le_total d 2 with h | h
  · rw [min_eq_left (by linarith), min_eq_left (by linarith)]; ring
  · rw [min_eq_right (by linarith), min_eq_right (by linarith)]; ring

theorem termR_coe (x y : Fin 3 → Fin 4096 → ℝ) (n m : Fin 4096) :
    termR (coeCloud x) (coeCloud y) n m = (termF x y n m : EReal) := by
  unfold termR termF
  rw [distR_coe, distR_coe, two_eq, Ideal.div_coe (by norm_num : (2 : ℝ) ≠ 0),
    Ideal.div_coe (by norm_num : (2 : ℝ) ≠ 0), one_eq, zero_eq, ← EReal.coe_zero, ← EReal.coe_mul, ← EReal.coe_mul,
    coe_min', ← EReal.coe_mul, ← EReal.coe_sub, ← EReal.coe_sub, coe_max', ← EReal.coe_mul, real_term]

/-! ## The sums -/

/-- The four blocks of 1024 rows partition the 4096 rows. -/
theorem sum_blocks {M : Type*} [AddCommMonoid M] (g : Fin 4096 → M) :
    ∑ b : Fin 4, ∑ r : Fin 1024, g (rowOf b r) = ∑ j : Fin 4096, g j := by
  rw [← Fintype.sum_prod_type' (fun (b : Fin 4) (r : Fin 1024) => g (rowOf b r))]
  refine Fintype.sum_equiv
    ((finProdFinEquiv (m := 4) (n := 1024)).trans (finCongr (by norm_num : 4 * 1024 = 4096))) _ _ (fun p => ?_)
  congr 1
  apply Fin.ext
  simp only [rowOf, Equiv.trans_apply, finCongr_apply, Fin.coe_cast, finProdFinEquiv_apply_val]
  omega

theorem colK_eq_sum (X Y : Cloud) (i : Fin 4096) : colK X Y i = ∑ j : Fin 4096, termK X Y j i := by
  rw [← sum_blocks (fun j => termK X Y j i), Fin.sum_univ_four]
  unfold colK blockSum
  rw [zero_eq, zero_add]

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem lossK_coe (x y : Fin 3 → Fin 4096 → ℝ) :
    lossK (coeCloud x) (coeCloud y) = ((1 / 4 * ∑ i : Fin 4096, ∑ j : Fin 4096, termF x y j i : ℝ) : EReal) := by
  unfold lossK
  rw [zero_eq, zero_add, quarter_eq, EReal.coe_mul, coe_sum]
  refine congrArg (HMul.hMul _) ?_
  refine Finset.sum_congr rfl (fun i _ => ?_)
  rw [colK_eq_sum, coe_sum]
  exact Finset.sum_congr rfl (fun j _ => termK_coe x y j i)

theorem lossR_coe (x y : Fin 3 → Fin 4096 → ℝ) :
    lossR (coeCloud x) (coeCloud y)
      = ((1 / 2 * ∑ n : Fin 4096, 1 / 2 * ∑ m : Fin 4096, termF x y n m : ℝ) : EReal) := by
  unfold lossR
  rw [zero_eq, zero_add, half_eq, EReal.coe_mul, coe_sum]
  refine congrArg (HMul.hMul _) ?_
  refine Finset.sum_congr rfl (fun n _ => ?_)
  rw [zero_add, EReal.coe_mul, coe_sum]
  refine congrArg (HMul.hMul _) ?_
  exact Finset.sum_congr rfl (fun m _ => termR_coe x y n m)

/-- On clouds of finite points the blocked and the plain spelling of the loss agree. -/
theorem lossK_eq_lossR (X Y : Cloud) (hX : Finite X) (hY : Finite Y) : lossK X Y = lossR X Y := by
  obtain ⟨x, rfl⟩ := exists_coeCloud X hX
  obtain ⟨y, rfl⟩ := exists_coeCloud Y hY
  rw [lossK_coe, lossR_coe]
  refine congrArg Real.toEReal ?_
  rw [Finset.sum_comm, ← Finset.mul_sum]
  ring

end Cert.PairLoss

end
-- ==== Proof.FiniteIn.lean ====
/-
  The precondition read back: when the printed predicate "every element of both arrays has absolute value
  below +∞" is all ones, both point clouds are finite, that is every coordinate is a real number.
-/
import proofs.«154118_j61521111547944_2_alg».proof.Proof.Spec
import proofs.«154118_j61521111547944_2_alg».proof.Pre_finite_inputs
import Idealize.ShloMosaic.Lib.ReduceAll
import Idealize.ShloMosaic.Lib.ValueIdx
import Idealize.ShloMosaic.PureOps.Ideal.Laws

noncomputable section

namespace Cert.PairLoss.FiniteIn

open Idealize.ShloMosaic

/-- The rank-0 shape has one index. -/
instance : Subsingleton Cert.Pre_finite_inputs.S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value `max x (-x)` compares below `+∞` is a real number. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- One array whose "all elements finite" reduction is 1 holds a real number at every index. -/
theorem real_of_all [Cert.Pre_finite_inputs.Facts] (x : Cert.Pre_finite_inputs.S1x3x64x64.Idx → EReal)
    (h : Host.reduce IntOp.andi
        (cmpf (F := Ideal) (φ := .f32) .olt (Host.absf (F := Ideal) (φ := .f32) x)
          (broadcastInDim Cert.Pre_finite_inputs.S1x3x64x64 ![] Cert.Pre_finite_inputs.Facts.bcast_S_S1x3x64x64
            (constant (F := Ideal) Cert.Pre_finite_inputs.S_ .f32 0x7F800000#32)))
        (constantI Cert.Pre_finite_inputs.S_ 1 1#1)
        Cert.Pre_finite_inputs.Facts.reducesTo_S1x3x64x64_S_d0_1_2_3 Cert.Pre_finite_inputs.Facts.h_S_ ValueIdx.ix0 = 1#1)
    (i : Cert.Pre_finite_inputs.S1x3x64x64.Idx) : ∃ r : ℝ, x i = (r : EReal) := by
  have e := Host.reduce_andi_all _ _ _ _ _ h i
  exact real_of_abs_lt (x i) e

theorem finite_of_pre [Cert.Pre_finite_inputs.Facts]
    (x0 x1 : Cert.Pre_finite_inputs.S1x3x64x64.Idx → EReal)
    (h : Cert.Pre_finite_inputs.fn (F := Ideal) x0 x1 = (fun _ => 1#1)) :
    Cert.PairLoss.Finite (Cert.PairLoss.cloudOf x0) ∧ Cert.PairLoss.Finite (Cert.PairLoss.cloudOf x1) := by
  have h0 := congrFun h ValueIdx.ix0
  dsimp only [Cert.Pre_finite_inputs.fn] at h0
  obtain ⟨ha, hb⟩ := IntOp.andi_eq_one.1 h0
  exact ⟨fun c n => real_of_all x0 ha _, fun c n => real_of_all x1 hb _⟩

end Cert.PairLoss.FiniteIn

end
-- ==== Proof.RefValue.lean ====
/-
  The reference program's result as a function of the two point clouds: it is the plain spelling of the
  pairwise-distance loss. The program is read one operation at a time, in layers: the transposed array at a
  point and a coordinate, the squared distance of a pair, the guarded distance, the term of a pair, the row
  sums and the total.
-/
import proofs.«154118_j61521111547944_2_alg».proof.Proof.Spec
import proofs.«154118_j61521111547944_2_alg».proof.Proof.Gen.ReferenceIdeal.Read

noncomputable section

namespace Cert.ReferenceIdeal.RefValue

open Cert.ReferenceIdeal Cert.ReferenceIdeal.Gen Cert.ReferenceIdeal.Read Cert.PairLoss
open Idealize.ShloMosaic Idealize.ShloMosaic.ValueIdx

/-- An argument array of shape [1, 3, 64, 64] over the extended reals. -/
abbrev Arr := (⟨S1x3x64x64, .f32⟩ : BufTy).Contents (Elt Ideal)

/-! ## The transposed arrays: point `n`, coordinate `c` -/

/-- The first argument flattened to [1, 3, 4096] and transposed to [1, 4096, 3] holds coordinate `c` of point `n`
    at `(0, n, c)`: the flat position `c * 4096 + n` is the pixel `(n / 64, n % 64)` of channel `c`. -/
theorem v1_at (x0 : Arr) (n : Fin 4096) (c : Fin 3) :
    val_main_v1 (F := Ideal) x0 (ix3 (0 : Fin 1) n c) = cloudOf x0 c n := by
  rw [val_main_v1_apply, val_main_v0_apply]
  unfold cloudOf
  refine congrArg x0 (funext fun a => Fin.ext ?_)
  have hc := c.isLt
  have hn := n.isLt
  match a with
  | ⟨0, _⟩ => rfl
  | ⟨1, _⟩ => show ((0 * 3 + c.val) * 4096 + n.val) / 4096 % 3 = c.val; omega
  | ⟨2, _⟩ => show ((0 * 3 + c.val) * 4096 + n.val) / 64 % 64 = n.val / 64; omega
  | ⟨3, _⟩ => show ((0 * 3 + c.val) * 4096 + n.val) % 64 = n.val % 64; omega

/-- The same for the second argument. -/
theorem v3_at (x1 : Arr) (n : Fin 4096) (c : Fin 3) :
    val_main_v3 (F := Ideal) x1 (ix3 (0 : Fin 1) n c) = cloudOf x1 c n := by
  rw [val_main_v3_apply, val_main_v2_apply]
  unfold cloudOf
  refine congrArg x1 (funext fun a => Fin.ext ?_)
  have hc := c.isLt
  have hn := n.isLt
  match a with
  | ⟨0, _⟩ => rfl
  | ⟨1, _⟩ => show ((0 * 3 + c.val) * 4096 + n.val) / 4096 % 3 = c.val; omega
  | ⟨2, _⟩ => show ((0 * 3 + c.val) * 4096 + n.val) / 64 % 64 = n.val / 64; omega
  | ⟨3, _⟩ => show ((0 * 3 + c.val) * 4096 + n.val) % 64 = n.val % 64; omega

/-! ## The squared coordinate differences and their sum -/

/-- At `(0, n, m, c)` the squared difference of coordinate `c` of points `n` and `m`, first cloud. -/
theorem v9_at (x0 : Arr) (n m : Fin 4096) (c : Fin 3) :
    val_main_v9 (F := Ideal) x0 (ix4 (0 : Fin 1) n m c)
      = (cloudOf x0 c n - cloudOf x0 c m) * (cloudOf x0 c n - cloudOf x0 c m) := by
  have h6 : val_main_v6 (F := Ideal) x0 (ix4 (0 : Fin 1) n m c) = cloudOf x0 c n := by
    rw [val_main_v6_apply, val_main_v4_apply, ← v1_at]
    exact congrArg _ (funext fun a => Fin.ext (by match a with | ⟨0, _⟩ => rfl | ⟨1, _⟩ => rfl | ⟨2, _⟩ => rfl))
  have h7 : val_main_v7 (F := Ideal) x0 (ix4 (0 : Fin 1) n m c) = cloudOf x0 c m := by
    rw [val_main_v7_apply, val_main_v5_apply, ← v1_at]
    exact congrArg _ (funext fun a => Fin.ext (by match a with | ⟨0, _⟩ => rfl | ⟨1, _⟩ => rfl | ⟨2, _⟩ => rfl))
  rw [val_main_v9_apply, val_main_v8_apply, h6, h7]
  rfl

/-- At `(0, n, m, c)` the squared difference of coordinate `c` of points `n` and `m`, second cloud. -/
theorem v21_at (x1 : Arr) (n m : Fin 4096) (c : Fin 3) :
    val_main_v21 (F := Ideal) x1 (ix4 (0 : Fin 1) n m c)
      = (cloudOf x1 c n - cloudOf x1 c m) * (cloudOf x1 c n - cloudOf x1 c m) := by
  have h6 : val_main_v18 (F := Ideal) x1 (ix4 (0 : Fin 1) n m c) = cloudOf x1 c n := by
    rw [val_main_v18_apply, val_main_v16_apply, ← v3_at]
    exact congrArg _ (funext fun a => Fin.ext (by match a with | ⟨0, _⟩ => rfl | ⟨1, _⟩ => rfl | ⟨2, _⟩ => rfl))
  have h7 : val_main_v19 (F := Ideal) x1 (ix4 (0 : Fin 1) n m c) = cloudOf x1 c m := by
    rw [val_main_v19_apply, val_main_v17_apply, ← v3_at]
    exact congrArg _ (funext fun a => Fin.ext (by match a with | ⟨0, _⟩ => rfl | ⟨1, _⟩ => rfl | ⟨2, _⟩ => rfl))
  rw [val_main_v21_apply, val_main_v20_apply, h6, h7]
  rfl

/-- At `(0, n, m)` the squared distance of points `n` and `m` of the first cloud, summed over the coordinates. -/
theorem v10_at (x0 : Arr) (n m : Fin 4096) :
    val_main_v10 (F := Ideal) x0 (ix3 (0 : Fin 1) n m) = sqR (cloudOf x0) n m := by
  rw [val_main_v10_apply]
  unfold sqR
  refine congrArg₂ (· + ·) rfl (Finset.sum_congr rfl fun c _ => ?_)
  rw [← v9_at]
  exact congrArg _ (funext fun a => Fin.ext (by match a with | ⟨0, _⟩ => rfl | ⟨1, _⟩ => rfl | ⟨2, _⟩ => rfl | ⟨3, _⟩ => rfl))

/-- At `(0, n, m)` the squared distance of points `n` and `m` of the second cloud. -/
theorem v22_at (x1 : Arr) (n m : Fin 4096) :
    val_main_v22 (F := Ideal) x1 (ix3 (0 : Fin 1) n m) = sqR (cloudOf x1) n m := by
  rw [val_main_v22_apply]
  unfold sqR
  refine congrArg₂ (· + ·) rfl (Finset.sum_congr rfl fun c _ => ?_)
  rw [← v21_at]
  exact congrArg _ (funext fun a => Fin.ext (by match a with | ⟨0, _⟩ => rfl | ⟨1, _⟩ => rfl | ⟨2, _⟩ => rfl | ⟨3, _⟩ => rfl))

/-! ## The guarded distance -/

/-- At `(0, n, m)` the guarded distance of points `n` and `m` of the first cloud: both selects read the same
    comparison of the squared distance with zero. -/
theorem v15_at (x0 : Arr) (n m : Fin 4096) :
    val_main_v15 (F := Ideal) x0 (ix3 (0 : Fin 1) n m) = distR (cloudOf x0) n m := by
  rw [val_main_v15_apply, val_main_v14_apply, val_main_v13_apply, val_main_v12_apply, v10_at,
    val_main_v11_apply, val_main_call0_v1_apply, val_main_call1_v1_apply]
  rfl

/-- At `(0, n, m)` the guarded distance of points `n` and `m` of the second cloud. -/
theorem v27_at (x1 : Arr) (n m : Fin 4096) :
    val_main_v27 (F := Ideal) x1 (ix3 (0 : Fin 1) n m) = distR (cloudOf x1) n m := by
  rw [val_main_v27_apply, val_main_v26_apply, val_main_v25_apply, val_main_v24_apply, v22_at,
    val_main_v23_apply, val_main_call2_v1_apply, val_main_call3_v1_apply]
  rfl

/-! ## The term of a pair -/

/-- At `(0, n, m)` the term of the pair `(n, m)`. -/
theorem v42_at (x0 x1 : Arr) (n m : Fin 4096) :
    val_main_v42 (F := Ideal) x0 x1 (ix3 (0 : Fin 1) n m) = termR (cloudOf x0) (cloudOf x1) n m := by
  rw [val_main_v42_apply, val_main_v41_apply, val_main_v39_apply, val_main_v31_apply, val_main_v29_apply,
    val_main_v37_apply, val_main_v35_apply, val_main_v33_apply, v15_at, v27_at,
    val_main_v28_apply, val_main_v30_apply, val_main_v32_apply, val_main_v34_apply, val_main_v36_apply,
    val_main_v38_apply, val_main_v40_apply]
  rfl

/-! ## The row sums and the total -/

/-- At `(0, n)` half the sum over `m` of the terms of the pairs `(n, m)`. -/
theorem v45_at (x0 x1 : Arr) (n : Fin 4096) :
    val_main_v45 (F := Ideal) x0 x1 (ix2 (0 : Fin 1) n)
      = half * (zero + ∑ m : Fin 4096, termR (cloudOf x0) (cloudOf x1) n m) := by
  rw [val_main_v45_apply, val_main_v43_apply, val_main_v44_apply]
  refine congrArg₂ (· * ·) rfl (congrArg₂ (· + ·) rfl (Finset.sum_congr rfl fun m _ => ?_))
  rw [← v42_at]
  exact congrArg _ (funext fun a => Fin.ext (by match a with | ⟨0, _⟩ => rfl | ⟨1, _⟩ => rfl | ⟨2, _⟩ => rfl))

/-- At `(0)` the sum over `n` of the halved row sums, from zero. -/
theorem v46_at (x0 x1 : Arr) :
    val_main_v46 (F := Ideal) x0 x1 (ix1 (0 : Fin 1))
      = zero + ∑ n : Fin 4096, half * (zero + ∑ m : Fin 4096, termR (cloudOf x0) (cloudOf x1) n m) := by
  rw [val_main_v46_apply]
  refine congrArg₂ (· + ·) rfl (Finset.sum_congr rfl fun n _ => ?_)
  rw [← v45_at]
  exact congrArg _ (funext fun a => Fin.ext (by match a with | ⟨0, _⟩ => rfl | ⟨1, _⟩ => rfl))

/-- The reshape of the one-element array to a scalar reads that element. -/
theorem v47_at (x0 x1 : Arr) (i : S_.Idx) :
    val_main_v47 (F := Ideal) x0 x1 i = val_main_v46 (F := Ideal) x0 x1 (ix1 (0 : Fin 1)) := by
  unfold val_main_v47
  refine shapeCast_apply _ shapeCasts_S1_S_ i (ix1 (0 : Fin 1)) ?_
  have h := (S_.rowMajor i).isLt
  have h1 : S_.numel = 1 := by decide
  rw [Shape.rowMajor_val_one]
  show 0 = (S_.rowMajor i).val
  omega

/-- The reference program computes the plain spelling of the loss of the two clouds its arguments hold. -/
theorem ref_eq (x0 x1 : Arr) :
    val_main_v48 (F := Ideal) x0 x1 = fun _ => lossR (cloudOf x0) (cloudOf x1) := by
  funext i
  rw [val_main_v48_apply, v47_at, v46_at]
  rfl

end Cert.ReferenceIdeal.RefValue

end
-- ==== Proof.Pieces.lean ====
/-
  What one step of the kernel's body leaves in the accumulator and in the output block, as a pure function of the
  four input blocks and of the accumulator before the step.
-/
import proofs.«154118_j61521111547944_2_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

/-- The two-coordinate origin, as the constant function. -/
theorem hz : (![0, 0] : Fin 2 → Nat) = fun _ => 0 := funext fun a => by fin_cases a <;> rfl

/-- The accumulator after a step, as a function of the four input blocks and of the accumulator before it:
    the accumulator plus the column sums of the block's terms. -/
abbrev step (x0 : Vec F S3x512 .f32) (x1 : Vec F S1024x3 .f32) (x2 : Vec F S3x512 .f32) (x3 : Vec F S1024x3 .f32)
    (acc : Vec F S1x512 .f32) : Vec F S1x512 .f32 :=
  k0_pay1 (k0_pay5 x2) (k0_pay6 x3) (k0_pay7 x0 x1) (k0_pay8 x2 x3) (k0_pay9 x1) (k0_pay10 x0) acc

/-- At the first row block of a column block the accumulator is reset to zero and then stepped. -/
theorem scratch_A (c : Dev nD) (i : grid0.Coords) (arg2 : Memref sig .tc .vmem S3x512 .f32) (harg2 : arg2.IsWhole) (arg3 : Memref sig .tc .vmem S1024x3 .f32) (harg3 : arg3.IsWhole) (arg4 : Memref sig .tc .vmem S3x512 .f32) (harg4 : arg4.IsWhole) (arg5 : Memref sig .tc .vmem S1024x3 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i)
    (x0 : Vec F S3x512 .f32) (x1 : Vec F S1024x3 .f32) (x2 : Vec F S3x512 .f32) (x3 : Vec F S1024x3 .f32) :
    sout0_A_0 c i arg2 harg2 arg3 harg3 arg4 harg4 arg5 harg5 arg6 harg6 arg7 harg7 hc0 hc1 x0 x1 x2 x3 = step x0 x1 x2 x3 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x512) hz, View.readCov_unit_zero (S := S1x512) _ hz]
  simp only [View.readAt_eq_ld, harg2.read_unread, harg3.read_unread, harg4.read_unread, harg5.read_unread, harg7.read_unread,
    View.ld_unit_zero (S := S1x512) hz, View.ld_unit_zero (S := S3x512) hz, View.ld_unit_zero (S := S1024x3) hz]

/-- At a middle row block the accumulator the block before left is stepped. -/
theorem scratch_B (c : Dev nD) (i : grid0.Coords) (arg2 : Memref sig .tc .vmem S3x512 .f32) (harg2 : arg2.IsWhole) (arg3 : Memref sig .tc .vmem S1024x3 .f32) (harg3 : arg3.IsWhole) (arg4 : Memref sig .tc .vmem S3x512 .f32) (harg4 : arg4.IsWhole) (arg5 : Memref sig .tc .vmem S1024x3 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i)
    (x0 : Vec F S3x512 .f32) (x1 : Vec F S1024x3 .f32) (x2 : Vec F S3x512 .f32) (x3 : Vec F S1024x3 .f32) (xs0 : Vec F S1x512 .f32) :
    sout0_B_0 c i arg2 harg2 arg3 harg3 arg4 harg4 arg5 harg5 arg6 harg6 arg7 harg7 hc0 hc1 x0 x1 x2 x3 xs0 = step x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread,
    View.ld_unit_zero (S := S1x512) hz, View.ld_unit_zero (S := S3x512) hz, View.ld_unit_zero (S := S1024x3) hz]

/-- At the last row block the accumulator is stepped likewise, -/
theorem scratch_C (c : Dev nD) (i : grid0.Coords) (arg2 : Memref sig .tc .vmem S3x512 .f32) (harg2 : arg2.IsWhole) (arg3 : Memref sig .tc .vmem S1024x3 .f32) (harg3 : arg3.IsWhole) (arg4 : Memref sig .tc .vmem S3x512 .f32) (harg4 : arg4.IsWhole) (arg5 : Memref sig .tc .vmem S1024x3 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S3x512 .f32) (x1 : Vec F S1024x3 .f32) (x2 : Vec F S3x512 .f32) (x3 : Vec F S1024x3 .f32) (xs0 : Vec F S1x512 .f32) :
    sout0_C_0 c i arg2 harg2 arg3 harg3 arg4 harg4 arg5 harg5 arg6 harg6 arg7 harg7 hc0 hc1 x0 x1 x2 x3 xs0 = step x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S1x512) hz, View.ld_unit_zero (S := S3x512) hz, View.ld_unit_zero (S := S1024x3) hz]

/-- and the output block receives the stepped accumulator. -/
theorem out_C (c : Dev nD) (i : grid0.Coords) (arg2 : Memref sig .tc .vmem S3x512 .f32) (harg2 : arg2.IsWhole) (arg3 : Memref sig .tc .vmem S1024x3 .f32) (harg3 : arg3.IsWhole) (arg4 : Memref sig .tc .vmem S3x512 .f32) (harg4 : arg4.IsWhole) (arg5 : Memref sig .tc .vmem S1024x3 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S3x512 .f32) (x1 : Vec F S1024x3 .f32) (x2 : Vec F S3x512 .f32) (x3 : Vec F S1024x3 .f32) (xs0 : Vec F S1x512 .f32) :
    out0_C_4 c i arg2 harg2 arg3 harg3 arg4 harg4 arg5 harg5 arg6 harg6 arg7 harg7 hc0 hc1 x0 x1 x2 x3 xs0 = step x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S1x512) _ hz]
  simp only [View.readAt_eq_ld, harg2.read_unread, harg3.read_unread, harg4.read_unread, harg5.read_unread, harg7.read_unread,
    View.ld_unit_zero (S := S1x512) hz, View.ld_unit_zero (S := S3x512) hz, View.ld_unit_zero (S := S1024x3) hz]

end Cert.KernelIdeal.KVal

end
-- ==== Proof.PayIdx.lean ====
/-
  One step of the kernel's body read at a lane: the accumulator there plus the sum, over the 1024 rows of the step's
  row block, of the pairs' terms — the squared distances accumulated coordinate by coordinate from column `k` of the
  `[1024, 3]` blocks (spread along the lanes) and row `k` of the `[3, 512]` blocks (spread along the sublanes).
-/
import proofs.«154118_j61521111547944_2_alg».proof.Proof.Spec
import proofs.«154118_j61521111547944_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx

namespace Cert.KernelIdeal.KVal

open Cert.KernelIdeal Cert.KernelIdeal.Gen Cert.PairLoss

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `k` of a `[1024, 3]` block, spread along the 512 lanes, reads at `(r, q)` the block's entry `(r, k)`. -/
theorem col0_apply (v : FVec Ideal S1024x3 .f32) (r : Fin 1024) (q : Fin 512) :
    broadcastTo S1024x512 (extractStridedSlice S1024x1 ![0, 0] v slices_S1024x3_o0_0_S1024x1) broadcasts_S1024x1_S1024x512 (ix2 r q)
      = v (ix2 r (0 : Fin 3)) :=
  (broadcastTo_a1_ab_apply _ _ r q).trans (slice2_axis1_apply 0 v _ r (0 : Fin 1) (0 : Fin 3) rfl)
theorem col1_apply (v : FVec Ideal S1024x3 .f32) (r : Fin 1024) (q : Fin 512) :
    broadcastTo S1024x512 (extractStridedSlice S1024x1 ![0, 1] v slices_S1024x3_o0_1_S1024x1) broadcasts_S1024x1_S1024x512 (ix2 r q)
      = v (ix2 r (1 : Fin 3)) :=
  (broadcastTo_a1_ab_apply _ _ r q).trans (slice2_axis1_apply 1 v _ r (0 : Fin 1) (1 : Fin 3) rfl)
theorem col2_apply (v : FVec Ideal S1024x3 .f32) (r : Fin 1024) (q : Fin 512) :
    broadcastTo S1024x512 (extractStridedSlice S1024x1 ![0, 2] v slices_S1024x3_o0_2_S1024x1) broadcasts_S1024x1_S1024x512 (ix2 r q)
      = v (ix2 r (2 : Fin 3)) :=
  (broadcastTo_a1_ab_apply _ _ r q).trans (slice2_axis1_apply 2 v _ r (0 : Fin 1) (2 : Fin 3) rfl)

/-- Row `k` of a `[3, 512]` block, spread along the 1024 sublanes, reads at `(r, q)` the block's entry `(k, q)`. -/
theorem row0_apply (v : FVec Ideal S3x512 .f32) (r : Fin 1024) (q : Fin 512) :
    broadcastTo S1024x512 (extractStridedSlice S1x512 ![0, 0] v slices_S3x512_o0_0_S1x512) broadcasts_S1x512_S1024x512 (ix2 r q)
      = v (ix2 (0 : Fin 3) q) :=
  (broadcastTo_1b_ab_apply _ _ r q).trans (slice2_axis0_apply 0 v _ (0 : Fin 1) q (0 : Fin 3) rfl)
theorem row1_apply (v : FVec Ideal S3x512 .f32) (r : Fin 1024) (q : Fin 512) :
    broadcastTo S1024x512 (extractStridedSlice S1x512 ![1, 0] v slices_S3x512_o1_0_S1x512) broadcasts_S1x512_S1024x512 (ix2 r q)
      = v (ix2 (1 : Fin 3) q) :=
  (broadcastTo_1b_ab_apply _ _ r q).trans (slice2_axis0_apply 1 v _ (0 : Fin 1) q (1 : Fin 3) rfl)
theorem row2_apply (v : FVec Ideal S3x512 .f32) (r : Fin 1024) (q : Fin 512) :
    broadcastTo S1024x512 (extractStridedSlice S1x512 ![2, 0] v slices_S3x512_o2_0_S1x512) broadcasts_S1x512_S1024x512 (ix2 r q)
      = v (ix2 (2 : Fin 3) q) :=
  (broadcastTo_1b_ab_apply _ _ r q).trans (slice2_axis0_apply 2 v _ (0 : Fin 1) q (2 : Fin 3) rfl)

/-- The squared distance of two points given by their coordinates, accumulated from zero. -/
def sq3 (a0 a1 a2 b0 b1 b2 : EReal) : EReal :=
  ((zero + (a0 - b0) * (a0 - b0)) + (a1 - b1) * (a1 - b1)) + (a2 - b2) * (a2 - b2)

/-- The pair's term from the two squared distances. -/
def tm (sx sy : EReal) : EReal :=
  min (Ideal.sqrt sx * one - one) one * max (one - Ideal.sqrt sy * half) zero

/-- The term of entry `(r, q)` of a step: row `r` of the `[1024, 3]` blocks against column `q` of the `[3, 512]` blocks. -/
def tmAt (x0 : FVec Ideal S3x512 .f32) (x1 : FVec Ideal S1024x3 .f32) (x2 : FVec Ideal S3x512 .f32) (x3 : FVec Ideal S1024x3 .f32)
    (r : Fin 1024) (q : Fin 512) : EReal :=
  tm (sq3 (x1 (ix2 r (0 : Fin 3))) (x1 (ix2 r (1 : Fin 3))) (x1 (ix2 r (2 : Fin 3))) (x0 (ix2 (0 : Fin 3) q)) (x0 (ix2 (1 : Fin 3) q)) (x0 (ix2 (2 : Fin 3) q)))
     (sq3 (x3 (ix2 r (0 : Fin 3))) (x3 (ix2 r (1 : Fin 3))) (x3 (ix2 r (2 : Fin 3))) (x2 (ix2 (0 : Fin 3) q)) (x2 (ix2 (1 : Fin 3) q)) (x2 (ix2 (2 : Fin 3) q)))

/-- The sum of a `[1024, 512]` array over its rows, read at lane `q`: the sum over `r` of the entries `(r, q)`. -/
theorem colsum_apply (src : FVec Ideal S1024x512 .f32) (hφ : FKind.Formats .f32)
    (hacc : (0x00000000#32 : BitVec 32) = FKind.add.neutral .f32 hφ) (q : Fin 512) :
    multiReduction .add [0] S512 src 0x00000000#32 reduces_S1024x512_S512 hφ hacc (ix1 q) = ∑ r : Fin 1024, src (ix2 r q) := by
  refine (Ideal.multiReduction_add_single src 0x00000000#32 reduces_S1024x512_S512 hφ hacc (ix1 q)).trans ?_
  exact Finset.sum_congr rfl fun r _ => congrArg src (funext fun a => Fin.ext (by match a with | ⟨0, _⟩ => rfl | ⟨1, _⟩ => rfl))

/-- A step read at lane `q`: the accumulator there plus the sum over the 1024 rows of the pairs' terms. -/
theorem step_apply (x0 : FVec Ideal S3x512 .f32) (x1 : FVec Ideal S1024x3 .f32) (x2 : FVec Ideal S3x512 .f32) (x3 : FVec Ideal S1024x3 .f32)
    (xs : FVec Ideal S1x512 .f32) (q : Fin 512) :
    k0_pay1 (F := Ideal) (k0_pay5 x2) (k0_pay6 x3) (k0_pay7 x0 x1) (k0_pay8 x2 x3) (k0_pay9 x1) (k0_pay10 x0) xs (ix2 (0 : Fin 1) q)
      = xs (ix2 (0 : Fin 1) q) + ∑ r : Fin 1024, tmAt x0 x1 x2 x3 r q := by
  unfold k0_pay1 k0_pay7 k0_pay8 k0_pay9 k0_pay10 k0_pay3 k0_pay4 k0_pay5 k0_pay6
  simp only [shapeCast_self]
  show xs (ix2 (0 : Fin 1) q) + (shapeCast S1x512 _ shapeCasts_S512_S1x512) (ix2 (0 : Fin 1) q) = _
  refine congrArg (xs (ix2 (0 : Fin 1) q) + ·) ((shapeCast_a_1a_apply _ shapeCasts_S512_S1x512 (0 : Fin 1) q).trans
    ((colsum_apply _ _ _ q).trans (Finset.sum_congr rfl fun r _ => ?_)))
  simp only [mulf_apply, minimumf_apply, maximumf_apply, subf_apply, addf_apply, broadcast_apply, col0_apply, col1_apply, col2_apply,
    row0_apply, row1_apply, row2_apply, Idealize.ShloMosaic.sqrt]
  rfl

end Cert.KernelIdeal.KVal

end
-- ==== Proof.Blocks.lean ====
/-
  What the kernel's windows hold at a grid point, as entries of the two point clouds: the operands the region finds
  are each argument recast to [3, 4096] (points along the columns) and its transpose (points along the rows); at the
  point of column block `a` and row block `b` the [3, 512] windows hold columns `512 a …` and the [1024, 3] windows
  rows `1024 b …`.
-/
import proofs.«154118_j61521111547944_2_alg».proof.Proof.Spec
import proofs.«154118_j61521111547944_2_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.PairLoss

variable (m : (ℓ : Loc nD τ sig) → Buf (Elt Ideal) ℓ)

/-! ## The arrays the region finds: the two clouds, points along the columns and along the rows -/

/-- The first operand is the first argument recast to three rows of 4096. -/
theorem V_v0 (c : Dev nD) : (V m c main_v0 : S3x4096.Idx → EReal)
    = shapeCast S3x4096 (m ((c : Thread nD τ).loc main_arg0)) shapeCasts_S1x3x64x64_S3x4096 := by
  show StableHlo.after hostOps0 (fun b => m (c, b)) (Proc.devRef .tc main_v0) = _
  after_results; rfl

/-- The second operand is its transpose. -/
theorem V_v1 (c : Dev nD) : (V m c main_v1 : S4096x3.Idx → EReal)
    = transpose S4096x3 [1, 0] (V m c main_v0 : S3x4096.Idx → EReal) transposes_S3x4096_S4096x3_1_0 := by
  rw [V_v0]
  show StableHlo.after hostOps0 (fun b => m (c, b)) (Proc.devRef .tc main_v1) = _
  after_results; rfl

theorem V_v2 (c : Dev nD) : (V m c main_v2 : S3x4096.Idx → EReal)
    = shapeCast S3x4096 (m ((c : Thread nD τ).loc main_arg1)) shapeCasts_S1x3x64x64_S3x4096 := by
  show StableHlo.after hostOps0 (fun b => m (c, b)) (Proc.devRef .tc main_v2) = _
  after_results; rfl

theorem V_v3 (c : Dev nD) : (V m c main_v3 : S4096x3.Idx → EReal)
    = transpose S4096x3 [1, 0] (V m c main_v2 : S3x4096.Idx → EReal) transposes_S3x4096_S4096x3_1_0 := by
  rw [V_v2]
  show StableHlo.after hostOps0 (fun b => m (c, b)) (Proc.devRef .tc main_v3) = _
  after_results; rfl

/-- An array of shape [1, 3, 64, 64] recast to [3, 4096] reads, at `(k, n)`, coordinate `k` of point `n` of its cloud. -/
theorem recast_apply (x : (⟨4, ![1, 3, 64, 64]⟩ : Shape).Idx → EReal) (k : Fin 3) (n : Fin 4096) :
    shapeCast S3x4096 x shapeCasts_S1x3x64x64_S3x4096 (ix2 k n) = cloudOf x k n := by
  unfold cloudOf
  refine shapeCast_apply x _ (ix2 k n) _ ?_
  rw [Shape.rowMajor_val_four, Shape.rowMajor_val_two]
  show ((0 * 3 + k.val) * 64 + n.val / 64) * 64 + n.val % 64 = k.val * 4096 + n.val
  omega

/-- The first operand read at `(k, n)`: coordinate `k` of point `n` of the first argument's cloud. -/
theorem V_v0_apply (c : Dev nD) (k : Fin 3) (n : Fin 4096) :
    (V m c main_v0 : S3x4096.Idx → EReal) (ix2 k n) = cloudOf (m ((c : Thread nD τ).loc main_arg0)) k n := by
  rw [V_v0]; exact recast_apply _ k n

/-- The second operand read at `(n, k)`: the same entry. -/
theorem V_v1_apply (c : Dev nD) (n : Fin 4096) (k : Fin 3) :
    (V m c main_v1 : S4096x3.Idx → EReal) (ix2 n k) = cloudOf (m ((c : Thread nD τ).loc main_arg0)) k n := by
  rw [V_v1]; exact (transpose_ix2_apply _ _ n k).trans (V_v0_apply m c k n)

theorem V_v2_apply (c : Dev nD) (k : Fin 3) (n : Fin 4096) :
    (V m c main_v2 : S3x4096.Idx → EReal) (ix2 k n) = cloudOf (m ((c : Thread nD τ).loc main_arg1)) k n := by
  rw [V_v2]; exact recast_apply _ k n

theorem V_v3_apply (c : Dev nD) (n : Fin 4096) (k : Fin 3) :
    (V m c main_v3 : S4096x3.Idx → EReal) (ix2 n k) = cloudOf (m ((c : Thread nD τ).loc main_arg1)) k n := by
  rw [V_v3]; exact (transpose_ix2_apply _ _ n k).trans (V_v2_apply m c k n)

/-! ## The windows' blocks at a grid point

  The grid is 8 column blocks by 4 row blocks, point `t` at column block `t / 4` and row block `t % 4`. -/

theorem idx_cols0 : ∀ t : Fin cfg0.N, win0_0.index t (0 : Fin 2) = 0 ∧ win0_0.index t (1 : Fin 2) = t.val / 4 :=
  (by decide +kernel : ∀ t : Fin grid0.N, win0_0.index t (0 : Fin 2) = 0 ∧ win0_0.index t (1 : Fin 2) = t.val / 4)
theorem idx_rows1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem idx_cols2 : ∀ t : Fin cfg0.N, win0_2.index t (0 : Fin 2) = 0 ∧ win0_2.index t (1 : Fin 2) = t.val / 4 :=
  (by decide +kernel : ∀ t : Fin grid0.N, win0_2.index t (0 : Fin 2) = 0 ∧ win0_2.index t (1 : Fin 2) = t.val / 4)
theorem idx_rows3 : ∀ t : Fin cfg0.N, win0_3.index t (0 : Fin 2) = t.val % 4 ∧ win0_3.index t (1 : Fin 2) = 0 :=
  (by decide +kernel : ∀ t : Fin grid0.N, win0_3.index t (0 : Fin 2) = t.val % 4 ∧ win0_3.index t (1 : Fin 2) = 0)
theorem idx_cols4 : ∀ t : Fin cfg0.N, win0_4.index t (0 : Fin 2) = 0 ∧ win0_4.index t (1 : Fin 2) = t.val / 4 :=
  (by decide +kernel : ∀ t : Fin grid0.N, win0_4.index t (0 : Fin 2) = 0 ∧ win0_4.index t (1 : Fin 2) = t.val / 4)

/-- Window 0's block at point `t` is columns `512 (t / 4) …` of the first operand. -/
theorem iblk0_apply (c : Dev nD) (t : Fin cfg0.N) (x : S3x512.Idx) (k : S3x4096.Idx)
    (hk0 : (k 0).val = (x 0).val) (hk1 : (k 1).val = 512 * (t.val / 4) + (x 1).val) :
    (iblk m c 0 t : Vec Ideal S3x512 .f32) x = (V m c main_v0 : S3x4096.Idx → EReal) k := by
  unfold iblk
  rw [View.read_apply]
  show V m c main_v0 _ = V m c main_v0 _
  congr 1
  funext a
  apply Fin.ext
  match a with
  | ⟨0, _⟩ => show win0_0.index t 0 * 3 + 1 * (x 0).val = (k 0).val; rw [(idx_cols0 t).1, hk0]; omega
  | ⟨1, _⟩ => show win0_0.index t 1 * 512 + 1 * (x 1).val = (k 1).val; rw [(idx_cols0 t).2, hk1]; omega

/-- Window 1's block at point `t` is rows `1024 (t % 4) …` of the second operand. -/
theorem iblk1_apply (c : Dev nD) (t : Fin cfg0.N) (x : S1024x3.Idx) (k : S4096x3.Idx)
    (hk0 : (k 0).val = 1024 * (t.val % 4) + (x 0).val) (hk1 : (k 1).val = (x 1).val) :
    (iblk m c 1 t : Vec Ideal S1024x3 .f32) x = (V m c main_v1 : S4096x3.Idx → EReal) k := by
  unfold iblk
  rw [View.read_apply]
  show V m c main_v1 _ = V m c main_v1 _
  congr 1
  funext a
  apply Fin.ext
  match a with
  | ⟨0, _⟩ => show win0_1.index t 0 * 1024 + 1 * (x 0).val = (k 0).val; rw [(idx_rows1 t).1, hk0]; omega
  | ⟨1, _⟩ => show win0_1.index t 1 * 3 + 1 * (x 1).val = (k 1).val; rw [(idx_rows1 t).2, hk1]; omega

theorem iblk2_apply (c : Dev nD) (t : Fin cfg0.N) (x : S3x512.Idx) (k : S3x4096.Idx)
    (hk0 : (k 0).val = (x 0).val) (hk1 : (k 1).val = 512 * (t.val / 4) + (x 1).val) :
    (iblk m c 2 t : Vec Ideal S3x512 .f32) x = (V m c main_v2 : S3x4096.Idx → EReal) k := by
  unfold iblk
  rw [View.read_apply]
  show V m c main_v2 _ = V m c main_v2 _
  congr 1
  funext a
  apply Fin.ext
  match a with
  | ⟨0, _⟩ => show win0_2.index t 0 * 3 + 1 * (x 0).val = (k 0).val; rw [(idx_cols2 t).1, hk0]; omega
  | ⟨1, _⟩ => show win0_2.index t 1 * 512 + 1 * (x 1).val = (k 1).val; rw [(idx_cols2 t).2, hk1]; omega

theorem iblk3_apply (c : Dev nD) (t : Fin cfg0.N) (x : S1024x3.Idx) (k : S4096x3.Idx)
    (hk0 : (k 0).val = 1024 * (t.val % 4) + (x 0).val) (hk1 : (k 1).val = (x 1).val) :
    (iblk m c 3 t : Vec Ideal S1024x3 .f32) x = (V m c main_v3 : S4096x3.Idx → EReal) k := by
  unfold iblk
  rw [View.read_apply]
  show V m c main_v3 _ = V m c main_v3 _
  congr 1
  funext a
  apply Fin.ext
  match a with
  | ⟨0, _⟩ => show win0_3.index t 0 * 1024 + 1 * (x 0).val = (k 0).val; rw [(idx_rows3 t).1, hk0]; omega
  | ⟨1, _⟩ => show win0_3.index t 1 * 3 + 1 * (x 1).val = (k 1).val; rw [(idx_rows3 t).2, hk1]; omega

/-- Column `q` of column block `a`. -/
abbrev colOf (a : Fin 8) (q : Fin 512) : Fin 4096 := ⟨512 * a.val + q.val, by omega⟩

/-- The four blocks at the point of column block `a` and row block `b`, as entries of the two clouds. -/
theorem blk0_cloud (c : Dev nD) (t : Fin cfg0.N) (a : Fin 8) (ha : t.val / 4 = a.val) (k : Fin 3) (q : Fin 512) :
    (iblk m c 0 t : Vec Ideal S3x512 .f32) (ix2 k q) = cloudOf (m ((c : Thread nD τ).loc main_arg0)) k (colOf a q) :=
  (iblk0_apply m c t (ix2 k q) (ix2 k (colOf a q)) rfl (by show 512 * a.val + q.val = 512 * (t.val / 4) + q.val; rw [ha])).trans
    (V_v0_apply m c k (colOf a q))
theorem blk1_cloud (c : Dev nD) (t : Fin cfg0.N) (b : Fin 4) (hb : t.val % 4 = b.val) (r : Fin 1024) (k : Fin 3) :
    (iblk m c 1 t : Vec Ideal S1024x3 .f32) (ix2 r k) = cloudOf (m ((c : Thread nD τ).loc main_arg0)) k (rowOf b r) :=
  (iblk1_apply m c t (ix2 r k) (ix2 (rowOf b r) k) (by show 1024 * b.val + r.val = 1024 * (t.val % 4) + r.val; rw [hb]) rfl).trans
    (V_v1_apply m c (rowOf b r) k)
theorem blk2_cloud (c : Dev nD) (t : Fin cfg0.N) (a : Fin 8) (ha : t.val / 4 = a.val) (k : Fin 3) (q : Fin 512) :
    (iblk m c 2 t : Vec Ideal S3x512 .f32) (ix2 k q) = cloudOf (m ((c : Thread nD τ).loc main_arg1)) k (colOf a q) :=
  (iblk2_apply m c t (ix2 k q) (ix2 k (colOf a q)) rfl (by show 512 * a.val + q.val = 512 * (t.val / 4) + q.val; rw [ha])).trans
    (V_v2_apply m c k (colOf a q))
theorem blk3_cloud (c : Dev nD) (t : Fin cfg0.N) (b : Fin 4) (hb : t.val % 4 = b.val) (r : Fin 1024) (k : Fin 3) :
    (iblk m c 3 t : Vec Ideal S1024x3 .f32) (ix2 r k) = cloudOf (m ((c : Thread nD τ).loc main_arg1)) k (rowOf b r) :=
  (iblk3_apply m c t (ix2 r k) (ix2 (rowOf b r) k) (by show 1024 * b.val + r.val = 1024 * (t.val % 4) + r.val; rw [hb]) rfl).trans
    (V_v3_apply m c (rowOf b r) k)

end Cert.KernelIdeal.KVal

end
-- ==== Proof.Chain.lean ====
/-
  The accumulator along a column block: at the point of column block `a` and row block `b` a step adds, at lane `q`,
  the sum of column `512 a + q`'s pair terms over the rows `1024 b …`; so after the four row blocks the output block
  holds the column's whole sum, accumulated block by block from zero.
-/
import proofs.«154118_j61521111547944_2_alg».proof.Proof.Spec
import proofs.«154118_j61521111547944_2_alg».proof.Proof.Pieces
import proofs.«154118_j61521111547944_2_alg».proof.Proof.PayIdx
import proofs.«154118_j61521111547944_2_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.PairLoss

variable (m : (ℓ : Loc nD τ sig) → Buf (Elt Ideal) ℓ)

/-- The two clouds the arguments hold. -/
abbrev cloudX (c : Dev nD) : Cloud := cloudOf (m ((c : Thread nD τ).loc main_arg0))
abbrev cloudY (c : Dev nD) : Cloud := cloudOf (m ((c : Thread nD τ).loc main_arg1))

/-- At the point of column block `a` and row block `b`, the step's term at `(r, q)` is the term of the pair of
    points `1024 b + r` and `512 a + q`. -/
theorem tmAt_cloud (c : Dev nD) (t : Fin cfg0.N) (a : Fin 8) (b : Fin 4) (ha : t.val / 4 = a.val) (hb : t.val % 4 = b.val)
    (r : Fin 1024) (q : Fin 512) :
    tmAt (iblk m c 0 t) (iblk m c 1 t) (iblk m c 2 t) (iblk m c 3 t) r q
      = termK (cloudX m c) (cloudY m c) (rowOf b r) (colOf a q) := by
  unfold tmAt
  rw [blk0_cloud m c t a ha 0 q, blk0_cloud m c t a ha 1 q, blk0_cloud m c t a ha 2 q,
    blk1_cloud m c t b hb r 0, blk1_cloud m c t b hb r 1, blk1_cloud m c t b hb r 2,
    blk2_cloud m c t a ha 0 q, blk2_cloud m c t a ha 1 q, blk2_cloud m c t a ha 2 q,
    blk3_cloud m c t b hb r 0, blk3_cloud m c t b hb r 1, blk3_cloud m c t b hb r 2]
  rfl

/-- So a step there adds, at lane `q`, the sum of column `512 a + q`'s terms over row block `b`. -/
theorem step_point (c : Dev nD) (t : Fin cfg0.N) (a : Fin 8) (b : Fin 4) (ha : t.val / 4 = a.val) (hb : t.val % 4 = b.val)
    (acc : Vec Ideal S1x512 .f32) (q : Fin 512) :
    step (F := Ideal) (iblk m c 0 t) (iblk m c 1 t) (iblk m c 2 t) (iblk m c 3 t) acc (ix2 (0 : Fin 1) q)
      = acc (ix2 (0 : Fin 1) q) + blockSum (cloudX m c) (cloudY m c) b (colOf a q) :=
  (step_apply _ _ _ _ acc q).trans
    (congrArg (acc (ix2 (0 : Fin 1) q) + ·) (Finset.sum_congr rfl fun r _ => tmAt_cloud m c t a b ha hb r q))

theorem N32 : cfg0.N = 32 := N_0

/-- After the first row block of column block `a` the accumulator holds, at lane `q`, zero plus the first block sum. -/
theorem acc0 (c : Dev nD) (t : Fin cfg0.N) (a : Fin 8) (ha : t.val / 4 = a.val) (h0 : t.val % 4 = 0) (q : Fin 512) :
    (outsAt0 m c t.val t.isLt).2 (ix2 (0 : Fin 1) q)
      = zero + blockSum (cloudX m c) (cloudY m c) 0 (colOf a q) := by
  rw [outsAt0_A m c t h0 (by omega)]
  dsimp only
  rw [scratch_A]
  exact step_point m c t a 0 ha h0 _ q

/-- After the second, that plus the second block sum. -/
theorem acc1 (c : Dev nD) (t : Fin cfg0.N) (a : Fin 8) (ha : t.val / 4 = a.val) (h1 : t.val % 4 = 1) (q : Fin 512) :
    (outsAt0 m c t.val t.isLt).2 (ix2 (0 : Fin 1) q)
      = (zero + blockSum (cloudX m c) (cloudY m c) 0 (colOf a q)) + blockSum (cloudX m c) (cloudY m c) 1 (colOf a q) := by
  have hN : t.val < 32 := lt_of_lt_of_eq t.isLt (N32)
  rw [outsAt0_B m c t (by omega) (by omega)]
  dsimp only
  rw [scratch_B]
  refine (step_point m c t a 1 ha h1 _ q).trans (congrArg (· + blockSum (cloudX m c) (cloudY m c) 1 (colOf a q)) ?_)
  exact acc0 m c ⟨t.val - 1, by omega⟩ a (by show (t.val - 1) / 4 = a.val; omega) (by show (t.val - 1) % 4 = 0; omega) q

/-- After the third, that plus the third. -/
theorem acc2 (c : Dev nD) (t : Fin cfg0.N) (a : Fin 8) (ha : t.val / 4 = a.val) (h2 : t.val % 4 = 2) (q : Fin 512) :
    (outsAt0 m c t.val t.isLt).2 (ix2 (0 : Fin 1) q)
      = ((zero + blockSum (cloudX m c) (cloudY m c) 0 (colOf a q)) + blockSum (cloudX m c) (cloudY m c) 1 (colOf a q))
        + blockSum (cloudX m c) (cloudY m c) 2 (colOf a q) := by
  have hN : t.val < 32 := lt_of_lt_of_eq t.isLt (N32)
  rw [outsAt0_B m c t (by omega) (by omega)]
  dsimp only
  rw [scratch_B]
  refine (step_point m c t a 2 ha h2 _ q).trans (congrArg (· + blockSum (cloudX m c) (cloudY m c) 2 (colOf a q)) ?_)
  exact acc1 m c ⟨t.val - 1, by omega⟩ a (by show (t.val - 1) / 4 = a.val; omega) (by show (t.val - 1) % 4 = 1; omega) q

/-- At the last row block the output block receives, at lane `q`, the whole sum of column `512 a + q`. -/
theorem out3 (c : Dev nD) (t : Fin cfg0.N) (a : Fin 8) (ha : t.val / 4 = a.val) (h3 : t.val % 4 = 3) (q : Fin 512) :
    (outsAt0 m c t.val t.isLt).1 (ix2 (0 : Fin 1) q) = colK (cloudX m c) (cloudY m c) (colOf a q) := by
  have hN : t.val < 32 := lt_of_lt_of_eq t.isLt (N32)
  rw [outsAt0_C m c t (by omega) h3]
  dsimp only
  rw [out_C]
  refine (step_point m c t a 3 ha h3 _ q).trans (congrArg (· + blockSum (cloudX m c) (cloudY m c) 3 (colOf a q)) ?_)
  exact acc2 m c ⟨t.val - 1, by omega⟩ a (by show (t.val - 1) / 4 = a.val; omega) (by show (t.val - 1) % 4 = 2; omega) q

end Cert.KernelIdeal.KVal

end
-- ==== Proof.Tail.lean ====
/-
  The kernel's host operations after the region: the [1, 4096] array of column sums is summed over both axes
  from zero and the total is multiplied by a quarter. As a function of that array the result is
  `quarter * (zero + ∑ i, G (0, i))`.
-/
import proofs.«154118_j61521111547944_2_alg».proof.Proof.Spec
import proofs.«154118_j61521111547944_2_alg».proof.Proof.Gen.KernelIdeal.Frame
import Idealize.ShloMosaic.PureOps.Ideal.Laws
import Idealize.ShloMosaic.Lib.ValueIdx

noncomputable section

namespace Cert.KernelIdeal.KVal

open Cert.KernelIdeal Cert.KernelIdeal.Gen Cert.PairLoss
open Idealize.ShloMosaic Idealize.ShloMosaic.TcCoe Idealize.ShloMosaic.ValueIdx Idealize.SL.Sem

variable (m : (ℓ : Loc nD τ sig) → Buf (Elt Ideal) ℓ)

/-- The sum over every index of a [1, 4096] array is the sum over its 4096 columns. -/
theorem sum_row (G : S1x4096.Idx → EReal) : ∑ i : S1x4096.Idx, G i = ∑ i : Fin 4096, G (ix2 (0 : Fin 1) i) := by
  rw [sum_idx2, Fin.sum_univ_one]

/-- The two float operations of the tail on an array `G` of column sums: the total from zero, times a quarter. -/
theorem tail_ops (G : S1x4096.Idx → EReal) :
    mulf (F := Ideal) (constant (F := Ideal) S_ .f32 0x3E800000#32)
        (Host.reduceAdd (F := Ideal) (φ := .f32) G (constant (F := Ideal) S_ .f32 0x00000000#32) reducesTo_S1x4096_S_d0_1 h_S_)
      = fun _ => quarter * (zero + ∑ i : Fin 4096, G (ix2 (0 : Fin 1) i)) := by
  funext j
  show FloatOps.mulf (F := Ideal) (φ := .f32) (Ideal.ofBits .f32 0x3E800000#32)
      (Host.reduceAdd (F := Ideal) (φ := .f32) G (constant (F := Ideal) S_ .f32 0x00000000#32) reducesTo_S1x4096_S_d0_1 h_S_ j) = _
  simp only [Host.reduceAdd, Ideal.hostReduceAdd_def]
  rw [Ideal.hostReduceAdd_total reducesTo_S1x4096_S_d0_1 (fun b => b.elim0), sum_row]
  rfl

/-- After the host operations that follow the region the result buffer holds a quarter of the total of the final
    array of column sums. -/
theorem tail_eq (c : Dev nD) (G : S1x4096.Idx → EReal) (hfinal : (dats m 0 c).arrAt 4 cfg0.N = G) :
    Pipeline.afterTail₀ cfgs (dats m) 0 (V0 m) [hostOps1] c main_v6
      = fun _ => quarter * (zero + ∑ i : Fin 4096, G (ix2 (0 : Fin 1) i)) := by
  unfold Pipeline.afterTail₀
  show StableHlo.after hostOps1 _ (Proc.devRef .tc main_v6) = _
  after_results
  have harr : Pipeline.withArrays (cfgs 0).spec c (V0 m c) (fun w => (dats m 0 c).arrAt w (cfgs 0).N)
      (Proc.devRef .tc main_v4) = G :=
    (Pipeline.withArrays_arr spec0 launch0.win.arr_inj c _ _ 4).trans hfinal
  rw [harr]
  exact tail_ops G

end Cert.KernelIdeal.KVal

end
-- ==== Proof.Final.lean ====
/-
  The kernel's result. The output array's blocks are written back at the points of the last row block, each holding
  its 512 columns' whole sums; those blocks cover the [1, 4096] array, so it ends at the column sums, and the host
  operations after the region take a quarter of their total.
-/
import proofs.«154118_j61521111547944_2_alg».proof.Proof.Chain
import proofs.«154118_j61521111547944_2_alg».proof.Proof.Tail
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.PairLoss

variable (m : (ℓ : Loc nD τ sig) → Buf (Elt Ideal) ℓ)

/-- The output array, whole: entry `(0, i)` is the sum of column `i`'s terms, accumulated block by block. -/
def colSums (c : Dev nD) : S1x4096.Idx → EReal :=
  fun i => colK (cloudX m c) (cloudY m c) ⟨(i 1).val, idx2_lt1 i⟩

/-- What a point of the last row block writes back is its block of `colSums`. -/
theorem flushed_eq (c : Dev nD) (t : Fin cfg0.N) (hf : (cfg0.win 4).flush t = true) :
    (dats m 0 c).flushed 4 t = ((cfg0.win 4).blk t).view.read (Elt Ideal) (colSums m c) := by
  have h3 : t.val % 4 = 3 := (flush0_4 t).mp hf
  have hN : t.val < 32 := lt_of_lt_of_eq t.isLt N32
  show (cfg0.win 4).cut (grid0.coords t) ((dats m 0 c).after 4 t) = _
  rw [after0_4]
  funext j
  obtain ⟨u, q, rfl⟩ : ∃ (u : Fin 1) (q : Fin 512), j = ix2 u q := ⟨j 0, j 1, eq_ix2 j⟩
  obtain rfl : u = 0 := Subsingleton.elim _ _
  rw [View.read_apply]
  show (outsAt0 m c t.val t.isLt).1 (ix2 (0 : Fin 1) q) = colSums m c (((cfg0.win 4).blk t).view.emb (ix2 (0 : Fin 1) q))
  refine (out3 m c t ⟨t.val / 4, by omega⟩ rfl h3 q).trans ?_
  unfold colSums
  refine congrArg (colK (cloudX m c) (cloudY m c)) (Fin.ext ?_)
  show 512 * (t.val / 4) + q.val = win0_4.index t 1 * 512 + 1 * q.val
  rw [(idx_cols4 t).2]; omega

/-- An entry of the output array is in a point's block iff each coordinate is in the block's range on its axis. -/
theorem mem_blk (t : Fin cfg0.N) (i : S1x4096.Idx) :
    i ∈ ((cfg0.win 4).blk t).view.set ↔ ∀ a : Fin 2, win0_4.index t a * S1x512.size a ≤ (i a).val
      ∧ (i a).val < win0_4.index t a * S1x512.size a + S1x512.size a := by
  show i ∈ ((View.whole main_v4).slice (win0_4.rect t)).set ↔ _
  rw [View.set_slice_whole, Rect.mem_set_unit]
  exact Iff.rfl

/-- Every entry of the output array is in the block of some point of the last row block. -/
theorem cover (i : S1x4096.Idx) :
    ∃ t : Fin cfg0.N, (cfg0.win 4).flush t = true ∧ i ∈ ((cfg0.win 4).blk t).view.set := by
  have h0 : (i 0 : Nat) < 1 := (i 0).isLt
  have h1 : (i 1 : Nat) < 4096 := (i 1).isLt
  have hN : cfg0.N = 32 := N32
  have ht : 4 * ((i 1 : Nat) / 512) + 3 < cfg0.N := by omega
  refine ⟨⟨4 * ((i 1 : Nat) / 512) + 3, ht⟩, (flush0_4 _).mpr (by show (4 * ((i 1 : Nat) / 512) + 3) % 4 = 3; omega), ?_⟩
  rw [mem_blk]
  have e := idx_cols4 ⟨4 * ((i 1 : Nat) / 512) + 3, ht⟩
  intro a
  match a with
  | ⟨0, _⟩ =>
    show win0_4.index ⟨4 * ((i 1 : Nat) / 512) + 3, ht⟩ 0 * 1 ≤ (i 0 : Nat) ∧ (i 0 : Nat) < win0_4.index ⟨4 * ((i 1 : Nat) / 512) + 3, ht⟩ 0 * 1 + 1
    rw [e.1]; omega
  | ⟨1, _⟩ =>
    show win0_4.index ⟨4 * ((i 1 : Nat) / 512) + 3, ht⟩ 1 * 512 ≤ (i 1 : Nat) ∧ (i 1 : Nat) < win0_4.index ⟨4 * ((i 1 : Nat) / 512) + 3, ht⟩ 1 * 512 + 512
    rw [e.2]; show (4 * ((i 1 : Nat) / 512) + 3) / 4 * 512 ≤ (i 1 : Nat) ∧ (i 1 : Nat) < (4 * ((i 1 : Nat) / 512) + 3) / 4 * 512 + 512; omega

/-- So the output array ends at `colSums`. -/
theorem final (c : Dev nD) : (dats m 0 c).arrAt 4 cfg0.N = colSums m c :=
  (dats m 0 c).arrAt_eq_of_cover 4 (colSums m c) (flushed_eq m c) cover

/-- The kernel's run, read: the result at a quarter of the total of the column sums — the loss in its blocked
    spelling, of the two clouds the arguments hold — and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v6) = (fun _ => lossK (cloudX m c) (cloudY m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans
        (tail_eq m c (colSums m c) (final m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KVal

end
-- ==== Proof.lean ====
/-
  The certificate of the pairwise-distance loss kernel against its reference.

  Both programs compute, of two clouds of 4096 points in dimension 3 (the arguments, each [1, 3, 64, 64], point `n`
  the pixel `(n / 64, n % 64)`), a quarter of the sum over all pairs `(j, i)` of
  `min (|x_j - x_i| - 1) 1 * max (1 - |y_j - y_i| / 2) 0`. The kernel tiles the pairs in blocks of 1024 rows by 512
  columns, accumulates each column's sum over the four row blocks in a scratch buffer, writes it out after the last,
  and the host sums the 4096 column sums and takes a quarter (`lossK`). The reference guards the square root at zero,
  writes the first factor as `2 * min (d / 2) 1 - 1`, and takes a half of every row sum and of the total (`lossR`).
  With finite inputs every term is a real number and the two spellings agree (`lossK_eq_lossR`): the guard is void
  because a sum of squares is nonnegative and the root of zero is zero, `2 * min (d / 2) 1 - 1 = min (d - 1) 1`, and
  the halves and the order of summation are moved by distributivity over finite real sums.

  The three frames are the generated runs; the kernel's value is read off its frame run (Pieces, PayIdx, Blocks, Chain,
  Final, Tail), the reference's off its generated run read one operation at a time (RefValue), finiteness off the
  precondition (FiniteIn), and the two are joined by the algebra (Algebra).
-/
import proofs.«154118_j61521111547944_2_alg».proof.Defs
import proofs.«154118_j61521111547944_2_alg».proof.Proof.Gen.Kernel
import proofs.«154118_j61521111547944_2_alg».proof.Proof.Gen.Kernel.Skeleton
import proofs.«154118_j61521111547944_2_alg».proof.Proof.Gen.Kernel.Launch
import proofs.«154118_j61521111547944_2_alg».proof.Proof.Gen.Kernel.Points
import proofs.«154118_j61521111547944_2_alg».proof.Proof.Gen.Kernel.Frame
import proofs.«154118_j61521111547944_2_alg».proof.Proof.Gen.KernelIdeal
import proofs.«154118_j61521111547944_2_alg».proof.Proof.Gen.KernelIdeal.Skeleton
import proofs.«154118_j61521111547944_2_alg».proof.Proof.Gen.KernelIdeal.Launch
import proofs.«154118_j61521111547944_2_alg».proof.Proof.Gen.KernelIdeal.Points
import proofs.«154118_j61521111547944_2_alg».proof.Proof.Gen.KernelIdeal.Frame
import proofs.«154118_j61521111547944_2_alg».proof.Proof.Gen.ReferenceIdeal
import proofs.«154118_j61521111547944_2_alg».proof.Proof.Gen.ReferenceIdeal.Run
import proofs.«154118_j61521111547944_2_alg».proof.Proof.Gen.ReferenceIdeal.Read
import proofs.«154118_j61521111547944_2_alg».proof.Proof.Gen.Pre_finite_inputs
import proofs.«154118_j61521111547944_2_alg».proof.Proof.Spec
import proofs.«154118_j61521111547944_2_alg».proof.Proof.Algebra
import proofs.«154118_j61521111547944_2_alg».proof.Proof.FiniteIn
import proofs.«154118_j61521111547944_2_alg».proof.Proof.RefValue
import proofs.«154118_j61521111547944_2_alg».proof.Proof.Final
import Idealize.ShloMosaic.Adequacy
import Idealize.ShloMosaic.Init

noncomputable section

namespace Cert.Proof

open Idealize.ShloMosaic Idealize.SL.Sem

/-- The word-level kernel runs and keeps its arguments: the generated frame. -/
theorem frame_k [Cert.Kernel.Facts] [Cert.Pre_finite_inputs.Facts] : Cert.frame_Kernel :=
  fun m ρ _ => Cert.Kernel.Gen.frame m ρ

/-- The idealized kernel likewise. -/
theorem frame_ki [Cert.KernelIdeal.Facts] [Cert.Pre_finite_inputs.Facts] : Cert.frame_KernelIdeal :=
  fun m ρ _ => Cert.KernelIdeal.Gen.frame m ρ

/-- The reference's frame is its generated run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the arguments the kernel ends at the blocked spelling of the loss of the two clouds and
    the reference at the plain spelling; the clouds are finite by the precondition, and the spellings then agree. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => fun _ => Cert.PairLoss.lossK (Cert.KernelIdeal.KVal.cloudX m c) (Cert.KernelIdeal.KVal.cloudY m c),
    Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.RefValue.ref_eq, (hagree c).1, (hagree c).2]
  obtain ⟨hX, hY⟩ := Cert.PairLoss.FiniteIn.finite_of_pre _ _ (hpre c)
  exact funext fun _ => (Cert.PairLoss.lossK_eq_lossR _ _ hX hY).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
